-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S256x256 : Shape := ⟨2, ![256, 256]⟩
abbrev S256x8192 : Shape := ⟨2, ![256, 8192]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .bf16⟩
  | .hbm, ⟨3, _⟩ => ⟨S8192x8192, .f32⟩
  | .local _ .vmem, ⟨0, _⟩ => ⟨S256x256, .f32⟩
  | .local _ .vmem, ⟨1, _⟩ => ⟨S256x256, .f32⟩
  | .local _ .vmem, ⟨2, _⟩ => ⟨S8192x256, .bf16⟩
  | .local _ .vmem, ⟨3, _⟩ => ⟨S256x8192, .f32⟩
  | .local _ .vmem, ⟨4, _⟩ => ⟨S256x8192, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S256x8192_S256 : S256x8192.Reduces [1] S256
  shapeCasts_S256_S256x1 : S256.ShapeCasts S256x1
  broadcasts_S256x1_S256x8192 : S256x1.Broadcasts S256x8192
  inb_S256x8192_S256x8192_0_0 : ∀ a, (![0, 0] : Fin 2 → Nat) a + S256x8192.size a ≤ S256x8192.size a
  h_S256x8192 : 0 < S256x8192.numel
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Consts.lean ====
/-
  The float words the two programs spell that have to be read as numbers: 16.0 (the reference divides the scores by
  it), 0.0625 (the kernel multiplies them by it) and the word of −∞ (both row maxima start from it).  Each is read once
  here as the extended real it denotes, and the one law that joins the two programs' scalings is stated: multiplying by
  1/16 and dividing by 16 are the same function on every extended real, the infinities included, because 16 is a nonzero
  real.
-/
import Idealize.ShloMosaic.PureOps.Ideal

noncomputable section

namespace Cert.Consts

open Idealize.ShloMosaic

/-- The word 0x41800000 is 2⁴ = 16. -/
theorem ofBits_sixteen : Ideal.ofBits .f32 0x41800000#32 = ((16 : ℝ) : EReal) := by
  simp [Ideal.ofBits, Ideal.ieee, -EReal.coe_mul]; norm_num

/-- The word 0x3D800000 is 2⁻⁴ = 1/16. -/
theorem ofBits_sixteenth : Ideal.ofBits .f32 0x3D800000#32 = ((1 / 16 : ℝ) : EReal) := by
  simp [Ideal.ofBits, Ideal.ieee, -EReal.coe_mul]; norm_num

/-- The word 0xFF800000 is −∞, the least extended real. -/
theorem ofBits_neg_inf : Ideal.ofBits .f32 0xFF800000#32 = (⊥ : EReal) := by
  simp [Ideal.ofBits, Ideal.ieee]

/-- Taking the maximum with −∞ changes nothing. -/
theorem max_neg_inf (y : EReal) : max (Ideal.ofBits .f32 0xFF800000#32) y = y := by
  rw [ofBits_neg_inf]; exact max_eq_right bot_le

/-- The product with 1/16 is the quotient by 16, on every extended real. -/
theorem mul_sixteenth_eq_div_sixteen (x : EReal) :
    x * Ideal.ofBits .f32 0x3D800000#32 = Ideal.div x (Ideal.ofBits .f32 0x41800000#32) := by
  rw [ofBits_sixteen, ofBits_sixteenth, Ideal.div_coe (by norm_num : (16 : ℝ) ≠ 0)]

end Cert.Consts

end
-- ==== Proof.Spec.lean ====
/-
  What both programs compute, as one function of the two argument arrays.

  The arguments are a [8192, 256] array of query rows and a [8192, 256] array of key rows.  The score of query row n
  against key row j is their inner product over the 256 features, scaled by 2⁻⁴.  Row n of the result is the softmax of
  row n of the scores: every score has the row's maximum subtracted, is exponentiated, and is divided by the sum of the
  row's exponentials.  All operations are the exact ones on the extended reals; the maximum is folded from the word of
  −∞ and the scale is the word of 0.0625, kept as words so that neither side of the comparison has to evaluate them.
-/
import Idealize.ShloMosaic.PureOps.Ideal
import Idealize.ShloMosaic.Lib.ValueIdx

noncomputable section

namespace Cert.CorrSoftmax

open Idealize.ShloMosaic Idealize.ShloMosaic.ValueIdx

/-- The scaled inner product of a query row with key row `j`. -/
def score (q : Fin 256 → EReal) (keys : Fin 8192 → Fin 256 → EReal) (j : Fin 8192) : EReal :=
  (∑ k : Fin 256, q k * keys j k) * Ideal.ofBits .f32 0x3D800000#32

/-- The maximum of a row of scores, folded from −∞. -/
def rowMax (s : Fin 8192 → EReal) : EReal :=
  (Finset.univ : Finset (Fin 8192)).fold max (Ideal.ofBits .f32 0xFF800000#32) s

/-- The exponential of a score's distance below the row's maximum. -/
def weight (s : Fin 8192 → EReal) (j : Fin 8192) : EReal := Ideal.exp (s j - rowMax s)

/-- The softmax of a row of scores at column `j`: its weight over the sum of the row's weights. -/
def softmaxRow (s : Fin 8192 → EReal) (j : Fin 8192) : EReal := Ideal.div (weight s j) (∑ j' : Fin 8192, weight s j')

/-- Row `n` of the query array as a function of the feature. -/
def rowOf (a : (⟨2, ![8192, 256]⟩ : Shape).Idx → EReal) (n : Fin 8192) : Fin 256 → EReal := fun k => a (ix2 n k)

/-- The key array as a function of key row and feature. -/
def keysOf (a : (⟨2, ![8192, 256]⟩ : Shape).Idx → EReal) : Fin 8192 → Fin 256 → EReal := fun j k => a (ix2 j k)

/-- The result array: entry (n, j) is the softmax over j of the scaled inner products of query row n with the key rows. -/
def corrSoftmax (a0 a1 : (⟨2, ![8192, 256]⟩ : Shape).Idx → EReal) : (⟨2, ![8192, 8192]⟩ : Shape).Idx → EReal :=
  fun i => softmaxRow (score (rowOf a0 (i 0)) (keysOf a1)) (i 1)

theorem corrSoftmax_ix2 (a0 a1 : (⟨2, ![8192, 256]⟩ : Shape).Idx → EReal) (n j : Fin 8192) :
    corrSoftmax a0 a1 (ix2 n j) = softmaxRow (score (rowOf a0 n) (keysOf a1)) j := rfl

end Cert.CorrSoftmax

end
-- ==== Proof.RefValue.lean ====
/-
  The reference program's result, read one operation at a time, is the specification.

  The reference forms the [8192, 8192] matrix of inner products of query rows with key rows, divides it by 16, takes
  each row's maximum (folded from −∞, and then once more maximised against −∞, which changes nothing), subtracts it,
  exponentiates, sums each row (from 0) and divides.  Entry (n, j) of each stage is read from the stage before it at
  explicit coordinates; the quotient by 16 is the product with 1/16, which is how the specification spells the scale.
-/
import proofs.«105750_j69595650064956_2_alg».proof.Proof.Gen.ReferenceIdeal.Read
import proofs.«105750_j69595650064956_2_alg».proof.Proof.Consts
import proofs.«105750_j69595650064956_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.CorrSoftmax

/-- The scaled score: entry (n, j) of the divided product matrix is the inner product of query row n with key row j,
    times 1/16. -/
theorem score_at (x0 x1 : FVec Ideal S8192x256 .f32) (n j : Fin 8192) :
    val_main_v2 (F := Ideal) x0 x1 (ix2 n j) = score (rowOf x0 n) (keysOf x1) j := by
  rw [val_main_v2_apply, val_main_v0_apply, val_main_v1_apply, val_main_cst_apply]
  show Ideal.div (∑ k : Fin 256, x0 (lidx_main_v0 (ix2 n j) k) * x1 (ridx_main_v0 (ix2 n j) k))
      (Ideal.ofBits .f32 0x41800000#32) = _
  rw [← Cert.Consts.mul_sixteenth_eq_div_sixteen]
  have el : ∀ k : Fin 256, lidx_main_v0 (ix2 n j) k = ix2 n k := fun k =>
    funext fun a => Fin.ext (by match a with | ⟨0, _⟩ => rfl | ⟨1, _⟩ => rfl)
  have er : ∀ k : Fin 256, ridx_main_v0 (ix2 n j) k = ix2 j k := fun k =>
    funext fun a => Fin.ext (by match a with | ⟨0, _⟩ => rfl | ⟨1, _⟩ => rfl)
  simp only [el, er]
  rfl

/-- Row n of the score matrix with column k put back is entry (n, k). -/
theorem lift_row (h : S8192x8192.Reduces [1] S8192) (n : Fin 8192) (k : Fin (S8192x8192.size 1)) :
    h.lift (ix1 n) k = ix2 n (⟨k.val, k.isLt⟩ : Fin 8192) := by
  funext c; apply Fin.ext
  fin_cases c <;> rfl

/-- The row maximum the reference subtracts is the maximum of row n of the scores, folded from −∞. -/
theorem rowMax_at (x0 x1 : FVec Ideal S8192x256 .f32) (n : Fin 8192) :
    val_main_v5 (F := Ideal) x0 x1 (ix1 n) = rowMax (score (rowOf x0 n) (keysOf x1)) := by
  rw [val_main_v5_apply, val_main_v4_apply, val_main_cst_1_apply]
  show max (Ideal.ofBits .f32 0xFF800000#32) (val_main_v3 (F := Ideal) x0 x1 (ix1 n)) = _
  rw [Cert.Consts.max_neg_inf]
  unfold val_main_v3
  have hred : S8192x8192.Reduces [1] S8192 := by decide
  rw [Host.reduce_eq_fold_single FloatOps.maximumf _ _ reducesTo_S8192x8192_S8192_d1 hred h_S_]
  have hf : (val_main_v2 (F := Ideal) x0 x1 ∘ hred.lift (ix1 n)) = fun k : Fin 8192 => score (rowOf x0 n) (keysOf x1) k :=
    funext fun k => by
      show val_main_v2 (F := Ideal) x0 x1 (hred.lift (ix1 n) k) = _
      rw [lift_row hred n k]
      exact score_at x0 x1 n _
  exact congrArg (fun f => Finset.fold max (Ideal.ofBits .f32 0xFF800000#32) f (Finset.univ : Finset (Fin 8192))) hf

/-- Entry (n, j) after the exponential is the weight of score (n, j) in its row. -/
theorem weight_at (x0 x1 : FVec Ideal S8192x256 .f32) (n j : Fin 8192) :
    val_main_v9 (F := Ideal) x0 x1 (ix2 n j) = weight (score (rowOf x0 n) (keysOf x1)) j := by
  rw [val_main_v9_apply, val_main_v8_apply, score_at, val_main_v7_apply, val_main_v6_apply]
  have e : idx_main_v6 (idx_main_v7 (ix2 n j)) = ix1 n :=
    funext fun a => Fin.ext (by match a with | ⟨0, _⟩ => rfl)
  rw [e, rowMax_at]
  rfl

/-- The row sum the reference divides by is the sum of row n's weights. -/
theorem weightSum_at (x0 x1 : FVec Ideal S8192x256 .f32) (n : Fin 8192) :
    val_main_v10 (F := Ideal) x0 x1 (ix1 n) = ∑ j : Fin 8192, weight (score (rowOf x0 n) (keysOf x1)) j := by
  rw [val_main_v10_apply, val_main_cst_2_apply]
  show Ideal.ofBits .f32 0x00000000#32 + _ = _
  rw [Ideal.ofBits_zero_f32, zero_add]
  refine Finset.sum_congr rfl fun k _ => ?_
  have e : idx_main_v10 (ix1 n) k = ix2 n k :=
    funext fun a => Fin.ext (by match a with | ⟨0, _⟩ => rfl | ⟨1, _⟩ => rfl)
  rw [e, weight_at]

/-- The reference's result array is the specification of its two arguments. -/
theorem result_eq (x0 x1 : FVec Ideal S8192x256 .f32) :
    val_main_v13 (F := Ideal) x0 x1 = corrSoftmax x0 x1 := by
  funext i
  obtain ⟨n, j, rfl⟩ : ∃ (n j : Fin 8192), i = ix2 n j := ⟨i 0, i 1, eq_ix2 i⟩
  rw [val_main_v13_apply, weight_at, val_main_v12_apply, val_main_v11_apply]
  have e : idx_main_v11 (idx_main_v12 (ix2 n j)) = ix1 n :=
    funext fun a => Fin.ext (by match a with | ⟨0, _⟩ => rfl)
  rw [e, weightSum_at, corrSoftmax_ix2]
  rfl

end Cert.ReferenceIdeal.RefValue

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.Payload.lean ====
/-
  What the kernel body stores, read at an entry of its block.

  At a grid point the body holds a block of 256 query rows (256 × 256) and all 8192 key rows (8192 × 256).  It forms the
  256 × 8192 matrix of inner products (a matrix product into a zero accumulator, after a change of float format that is
  the identity on extended reals), scales it by the word of 0.0625, takes each row's maximum from −∞, views the maxima as
  a column and repeats it across the row, subtracts, exponentiates, sums each row, repeats the sums the same way and
  divides.  The stored term is cut below into these stages; each stage is then read at explicit coordinates (p, j), and
  together they say that entry (p, j) of the stored block is the softmax, over the key rows, of the scaled inner products
  of the block's query row p — the specification's row function of that query row and the keys.
-/
import proofs.«105750_j69595650064956_2_alg».proof.Proof.Gen.KernelIdeal.Skeleton
import proofs.«105750_j69595650064956_2_alg».proof.Proof.Spec
import proofs.«105750_j69595650064956_2_alg».proof.Proof.LibColumnLayout
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx Cert.CorrSoftmax Cert.Lib.ColumnLayout

/-! ## The stored term, stage by stage -/

/-- The block's scaled scores: query block times keys (contracting the feature axis of both), times the scale word. -/
def scores (v0 : Vec Ideal S256x256 .f32) (v2 : Vec Ideal S8192x256 .bf16) : FVec Ideal S256x8192 .f32 :=
  mulf (matmul dot_S256x256_S8192x256_S256x8192_1_1_0_0_n_n none (truncf .bf16 v0 bitsLt_bf16_f32)
      (shapeCast S8192x256 v2 shapeCasts_S8192x256_S8192x256 : FVec Ideal S8192x256 .bf16) (constant S256x8192 .f32 0x00000000#32))
    (broadcast S256x8192 (Scalar.ofBits .f32 0x3D800000#32))

/-- One number per row, viewed as a column and repeated across the row. -/
def column (r : FVec Ideal S256 .f32) : FVec Ideal S256x8192 .f32 :=
  broadcastTo S256x8192 (shapeCast S256x1 r shapeCasts_S256_S256x1) broadcasts_S256x1_S256x8192

/-- Each row's maximum, from −∞. -/
def rowMaxima (s : FVec Ideal S256x8192 .f32) : FVec Ideal S256 .f32 :=
  multiReduction .maximumf [1] S256 s 0xFF800000#32 reduces_S256x8192_S256 (.inl rfl) rfl

/-- The exponential of each score's distance below its row's maximum. -/
def weights (s : FVec Ideal S256x8192 .f32) : FVec Ideal S256x8192 .f32 :=
  exp (subf s (column (rowMaxima s)))

/-- Each row's sum. -/
def rowSums (e : FVec Ideal S256x8192 .f32) : FVec Ideal S256 .f32 :=
  multiReduction .add [1] S256 e 0x00000000#32 reduces_S256x8192_S256 (.inl rfl) rfl

/-- The stored value is the weights divided by their row sums. -/
theorem payload_eq (v0 : Vec Ideal S256x256 .f32) (v2 : Vec Ideal S8192x256 .bf16) :
    k0_pay1 (F := Ideal) v0 v2 = divf (weights (scores v0 v2)) (column (rowSums (weights (scores v0 v2)))) := rfl

/-! ## Each stage at an entry -/

/-- Row p of a 256 × 8192 block with column k put back is entry (p, k). -/
theorem lift_row (h : S256x8192.Reduces [1] S256) (p : Fin 256) (k : Fin (S256x8192.size 1)) :
    h.lift (ix1 p) k = ix2 p (⟨k.val, k.isLt⟩ : Fin 8192) := by
  funext c; apply Fin.ext
  fin_cases c <;> rfl

/-- The repeated column at (p, j) is the row's number. -/
theorem column_at (r : FVec Ideal S256 .f32) (p : Fin 256) (j : Fin 8192) : column r (ix2 p j) = r (ix1 p) :=
  (broadcastTo_a1_ab_apply _ broadcasts_S256x1_S256x8192 p j (0 : Fin 1)).trans
    (shapeCast_a_a1_apply r shapeCasts_S256_S256x1 p (0 : Fin 1))

/-- A row's maximum is the fold of max from −∞ over the row's entries. -/
theorem rowMaxima_at (s : FVec Ideal S256x8192 .f32) (p : Fin 256) :
    rowMaxima s (ix1 p) = rowMax (fun j => s (ix2 p j)) := by
  unfold rowMaxima
  refine (Ideal.multiReduction_maximumf_single s 0xFF800000#32 reduces_S256x8192_S256 (.inl rfl) rfl (ix1 p)).trans ?_
  have hf : (s ∘ reduces_S256x8192_S256.lift (ix1 p)) = fun k : Fin 8192 => s (ix2 p k) :=
    funext fun k => congrArg s (lift_row _ p k)
  exact congrArg (fun f => Finset.fold max (Ideal.ofBits .f32 0xFF800000#32) f (Finset.univ : Finset (Fin 8192))) hf

/-- A row's sum is the sum of the row's entries. -/
theorem rowSums_at (e : FVec Ideal S256x8192 .f32) (p : Fin 256) :
    rowSums e (ix1 p) = ∑ j : Fin 8192, e (ix2 p j) := by
  unfold rowSums
  refine (Ideal.multiReduction_add_single e 0x00000000#32 reduces_S256x8192_S256 (.inl rfl) rfl (ix1 p)).trans ?_
  exact Finset.sum_congr rfl fun k _ => congrArg e (lift_row _ p k)

theorem lhs_row (i : S256x8192.Idx) (q : dot_S256x256_S8192x256_S256x8192_1_1_0_0_n_n.contr.Idx) :
    (dot_S256x256_S8192x256_S256x8192_1_1_0_0_n_n.lhsIdx i q 0).val = (i 0).val := by
  unfold DotDims.lhsIdx
  rw [dif_neg (show ¬(0 : Fin S256x256.rank) ∈ dot_S256x256_S8192x256_S256x8192_1_1_0_0_n_n.lhsBatch by decide),
    dif_pos (show (0 : Fin S256x256.rank) ∈ dot_S256x256_S8192x256_S256x8192_1_1_0_0_n_n.lhsNonContracting by decide)]
  rfl

theorem rhs_row (i : S256x8192.Idx) (q : dot_S256x256_S8192x256_S256x8192_1_1_0_0_n_n.contr.Idx) :
    (dot_S256x256_S8192x256_S256x8192_1_1_0_0_n_n.rhsIdx i q 0).val = (i 1).val := by
  unfold DotDims.rhsIdx
  rw [dif_neg (show ¬(0 : Fin S8192x256.rank) ∈ dot_S256x256_S8192x256_S256x8192_1_1_0_0_n_n.rhsBatch by decide),
    dif_pos (show (0 : Fin S8192x256.rank) ∈ dot_S256x256_S8192x256_S256x8192_1_1_0_0_n_n.rhsNonContracting by decide)]
  rfl

/-- The matrix product into the zero accumulator at (p, j): the inner product of the left operand's row p with the right
    operand's row j (both operands are contracted along their second axis). -/
theorem matmul_at (l : FVec Ideal S256x256 .bf16) (r : FVec Ideal S8192x256 .bf16) (p : Fin 256) (j : Fin 8192) :
    matmul dot_S256x256_S8192x256_S256x8192_1_1_0_0_n_n none l r (constant (F := Ideal) S256x8192 .f32 0x00000000#32) (ix2 p j)
      = ∑ k : Fin 256, l (ix2 p k) * r (ix2 j k) := by
  simp only [matmul]
  rw [Ideal.matmul_constant_zero_apply,
    ← Equiv.sum_comp (contrEquiv1 dot_S256x256_S8192x256_S256x8192_1_1_0_0_n_n 256 rfl rfl).symm]
  refine Finset.sum_congr rfl fun k _ => ?_
  have hk := contrEquiv1_symm_val dot_S256x256_S8192x256_S256x8192_1_1_0_0_n_n 256 rfl rfl k
  have el : dot_S256x256_S8192x256_S256x8192_1_1_0_0_n_n.lhsIdx (ix2 p j)
      ((contrEquiv1 dot_S256x256_S8192x256_S256x8192_1_1_0_0_n_n 256 rfl rfl).symm k) = ix2 p k :=
    funext fun a => Fin.ext (by
      match a with
      | ⟨0, _⟩ => exact lhs_row _ _
      | ⟨1, _⟩ => exact (dot_S256x256_S8192x256_S256x8192_1_1_0_0_n_n.lhsIdx_val_of_single rfl _ _).trans hk)
  have er : dot_S256x256_S8192x256_S256x8192_1_1_0_0_n_n.rhsIdx (ix2 p j)
      ((contrEquiv1 dot_S256x256_S8192x256_S256x8192_1_1_0_0_n_n 256 rfl rfl).symm k) = ix2 j k :=
    funext fun a => Fin.ext (by
      match a with
      | ⟨0, _⟩ => exact rhs_row _ _
      | ⟨1, _⟩ => exact (dot_S256x256_S8192x256_S256x8192_1_1_0_0_n_n.rhsIdx_val_of_single rfl _ _).trans hk)
  rw [el, er]

/-- The block's scores at (p, j) are the specification's score of the block's query row p against key row j. -/
theorem scores_at (v0 : Vec Ideal S256x256 .f32) (v2 : Vec Ideal S8192x256 .bf16) (p : Fin 256) (j : Fin 8192) :
    scores v0 v2 (ix2 p j) = score (fun k => v0 (ix2 p k)) (fun j' k => v2 (ix2 j' k)) j := by
  unfold scores
  rw [mulf_apply, matmul_at, shapeCast_self]
  rfl

/-- The weights at (p, j). -/
theorem weights_at (s : FVec Ideal S256x8192 .f32) (p : Fin 256) (j : Fin 8192) :
    weights s (ix2 p j) = weight (fun j' => s (ix2 p j')) j := by
  unfold weights
  show Ideal.exp (s (ix2 p j) - column (rowMaxima s) (ix2 p j)) = _
  rw [column_at, rowMaxima_at]
  rfl

/-- Entry (p, j) of what the body stores: the softmax over the key rows of the scaled inner products of the block's
    query row p with them. -/
theorem payload_at (v0 : Vec Ideal S256x256 .f32) (v2 : Vec Ideal S8192x256 .bf16) (p : Fin 256) (j : Fin 8192) :
    k0_pay1 (F := Ideal) v0 v2 (ix2 p j)
      = softmaxRow (score (fun k => v0 (ix2 p k)) (fun j' k => v2 (ix2 j' k))) j := by
  rw [payload_eq]
  show Ideal.div (weights (scores v0 v2) (ix2 p j)) (column (rowSums (weights (scores v0 v2))) (ix2 p j)) = _
  rw [column_at, rowSums_at]
  have hs : (fun j' => scores v0 v2 (ix2 p j')) = score (fun k => v0 (ix2 p k)) (fun j' k => v2 (ix2 j' k)) :=
    funext fun j' => scores_at v0 v2 p j'
  simp only [weights_at, hs]
  rfl

/-- The same entry against whole arrays: if the block's query row p is row n of a query array and the block's keys are
    a key array, entry (p, j) of what the body stores is entry (n, j) of the specification of the two arrays. -/
theorem block_entry (A0 A1 : (⟨2, ![8192, 256]⟩ : Shape).Idx → EReal)
    (x0 : Vec Ideal S256x256 .f32) (x1 : Vec Ideal S8192x256 .bf16) (n : Fin 8192) (p : Fin 256) (j : Fin 8192)
    (h0 : ∀ k : Fin 256, x0 (ix2 p k) = A0 (ix2 n k))
    (h1 : ∀ (j' : Fin 8192) (k : Fin 256), x1 (ix2 j' k) = A1 (ix2 j' k)) :
    k0_pay1 (F := Ideal) x0 x1 (ix2 p j) = corrSoftmax A0 A1 (ix2 n j) := by
  rw [payload_at, corrSoftmax_ix2]
  have e0 : (fun k => x0 (ix2 p k)) = rowOf A0 n := funext h0
  have e1 : (fun j' k => x1 (ix2 j' k)) = keysOf A1 := funext fun j' => funext fun k => h1 j' k
  rw [e0, e1]

end Cert.KernelIdeal.Payload

end
-- ==== Proof.KernelValue.lean ====
/-
  From the kernel's blocks to its whole result array.

  The grid has 32 points.  Point t fetches rows 256·t … 256·t + 255 of the query array, has the whole key array (which
  the program first changes to another float format — the identity on extended reals), and writes back rows
  256·t … 256·t + 255 of the [8192, 8192] result.  Entry (p, j) of what it writes is, by the reading of the stored term,
  entry (256·t + p, j) of the specification of the two arguments; the 32 row bands tile the result (row r lies in band
  r / 256), so after the run the result array is the specification of the arguments.
-/
import proofs.«105750_j69595650064956_2_alg».proof.Proof.Gen.KernelIdeal.Value
import proofs.«105750_j69595650064956_2_alg».proof.Proof.Payload
import Idealize.ShloMosaic.Lib.Pipeline.Value
import Idealize.ShloMosaic.Lib.StableHlo.Run
import Idealize.ShloMosaic.Lib.Tactic

noncomputable section

namespace Cert.KernelIdeal.KernelValue

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Cert.CorrSoftmax
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three windows' block indices at point t: the query block and the result block are band t, the key block is
    the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The key array as the region finds it is the second argument: the format change before the region is the identity. -/
theorem keys_eq (c : Dev nD) :
    (V m c main_v0 : S8192x256.Idx → EReal) = (m ((c : Thread nD τ).loc main_arg1) : S8192x256.Idx → EReal) := by
  dsimp only [Gen.V, Gen.hostOps0]; after_results; rfl

/-- The specification of the two arguments as launched. -/
abbrev result (c : Dev nD) : S8192x8192.Idx → EReal :=
  corrSoftmax (m ((c : Thread nD τ).loc main_arg0)) (m ((c : Thread nD τ).loc main_arg1))

/-- What point t writes back is band t of the specification. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero hz]
  simp only [View.ld_unit_zero (S := S256x256) hz, View.ld_unit_zero (S := S8192x256) hz]
  obtain ⟨e00, e01, e10, e11, e20, e21⟩ := idx_facts t
  have hN : cfg0.N = 32 := N_0
  have ht : t.val < 32 := hN ▸ t.isLt
  funext y
  show k0_pay1 (F := Ideal) (iblk m c 0 t) (iblk m c 1 t) y = result m c (((cfg0.win 2).blk t).view.emb y)
  have key : ∀ (p : Fin 256) (j : Fin 8192), k0_pay1 (F := Ideal) (iblk m c 0 t) (iblk m c 1 t) (ix2 p j)
      = result m c (((cfg0.win 2).blk t).view.emb (ix2 p j)) := by
    intro p j
    have hp : p.val < 256 := p.isLt
    have hE : ((cfg0.win 2).blk t).view.emb (ix2 p j) = ix2 (⟨t.val * 256 + p.val, by omega⟩ : Fin 8192) j := by
      funext a; apply Fin.ext
      match a with
      | ⟨0, _⟩ => show win0_2.index t (0 : Fin 2) * 256 + 1 * p.val = t.val * 256 + p.val; rw [e20]; omega
      | ⟨1, _⟩ => show win0_2.index t (1 : Fin 2) * 8192 + 1 * j.val = j.val; rw [e21]; omega
    rw [hE]
    refine Payload.block_entry _ _ _ _ _ p j (fun k => ?_) (fun j' k => ?_)
    · show V m c main_arg0 (((cfg0.win 0).blk t).view.emb (ix2 p k)) = m ((c : Thread nD τ).loc main_arg0) (ix2 _ k)
      rw [V_main_arg0]
      refine congrArg _ (funext fun a => Fin.ext ?_)
      match a with
      | ⟨0, _⟩ => show win0_0.index t (0 : Fin 2) * 256 + 1 * p.val = t.val * 256 + p.val; rw [e00]; omega
      | ⟨1, _⟩ => show win0_0.index t (1 : Fin 2) * 256 + 1 * k.val = k.val; rw [e01]; omega
    · show V m c main_v0 (((cfg0.win 1).blk t).view.emb (ix2 j' k)) = m ((c : Thread nD τ).loc main_arg1) (ix2 j' k)
      rw [keys_eq]
      refine congrArg _ (funext fun a => Fin.ext ?_)
      match a with
      | ⟨0, _⟩ => show win0_1.index t (0 : Fin 2) * 8192 + 1 * j'.val = j'.val; rw [e10]; omega
      | ⟨1, _⟩ => show win0_1.index t (1 : Fin 2) * 256 + 1 * k.val = k.val; rw [e11]; omega
  have hy : y = ix2 (y 0 : Fin 256) (y 1 : Fin 8192) := eq_ix2 (n0 := 256) (n1 := 8192) y
  exact (congrArg (fun z => k0_pay1 (F := Ideal) (iblk m c 0 t) (iblk m c 1 t) z) hy).trans
    ((key (y 0) (y 1)).trans (congrArg (fun z => result m c (((cfg0.win 2).blk t).view.emb z)) hy.symm))

/-- An entry of the result lies in point t's band iff each coordinate is in the band's range on its axis. -/
theorem mem_blk (t : Fin cfg0.N) (i : S8192x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v1).slice (win0_2.rect t)).set ↔ _
  rw [View.set_slice_whole, Rect.mem_set_unit]
  exact Iff.rfl

/-- Every entry of the result is in some point's band: row r is in band r / 256. -/
theorem cover (i : S8192x8192.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 8192 := (i 1).isLt
  obtain ⟨t, htv⟩ : ∃ t : Fin cfg0.N, t.val = (i 0).val / 256 := ⟨⟨(i 0).val / 256, by rw [hN]; omega⟩, rfl⟩
  refine ⟨t, flush0_2 t, ?_⟩
  obtain ⟨-, -, -, -, e20, e21⟩ := idx_facts t
  rw [mem_blk]
  intro a
  match a with
  | ⟨0, _⟩ =>
    show win0_2.index t (0 : Fin 2) * 256 ≤ (i 0).val ∧ (i 0).val < win0_2.index t (0 : Fin 2) * 256 + 256
    rw [e20, htv]; omega
  | ⟨1, _⟩ =>
    show win0_2.index t (1 : Fin 2) * 8192 ≤ (i 1).val ∧ (i 1).val < win0_2.index t (1 : Fin 2) * 8192 + 8192
    rw [e21]; omega

/-- After the run the result array is the specification of the arguments. -/
theorem final (c : Dev nD) : (dats m 0 c).arrAt 2 cfg0.N = result m c :=
  (dats m 0 c).arrAt_eq_of_cover 2 (result m c) (fun t _ => flushed_eq m c t) cover

/-- The kernel's run: every weakly fair execution terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.lean ====
/-
  A correlation-softmax kernel against its jnp reference, on the extended reals.

  Both programs take a [8192, 256] array of query rows and a [8192, 256] array of key rows and return the [8192, 8192]
  array whose row n is the softmax, over the key rows j, of the inner products ⟨query n, key j⟩ scaled by 1/16 (the
  feature count is 256, and √256 = 16).  The kernel walks the query rows in 32 bands of 256, multiplies the inner
  products by the word of 0.0625 and computes each band's softmax in one pass; the reference divides the whole product
  matrix by the word of 16.0 and applies the softmax row by row.  On the extended reals the change of float format in
  front of the kernel's matrix product is the identity, the product with 1/16 is the quotient by 16 at every argument
  (16 is a nonzero real), and the reference's extra maximum against −∞ changes nothing; every other step is the same
  operation on both sides.  So both result arrays are one function of the arguments (Proof/Spec.lean): the reference's
  by reading its operations one at a time (Proof/RefValue.lean), the kernel's by reading what each grid point stores
  (Proof/Payload.lean) and tiling the result by the 32 bands (Proof/KernelValue.lean).  No step uses that the inputs
  are finite.  The three frames are the programs' runs with the result forgotten, and the idealized kernel is the
  printed kernel's own text, so nothing is owed for it.
-/
import proofs.«105750_j69595650064956_2_alg».proof.Defs
import proofs.«105750_j69595650064956_2_alg».proof.Proof.Gen.Kernel
import proofs.«105750_j69595650064956_2_alg».proof.Proof.Gen.Kernel.Skeleton
import proofs.«105750_j69595650064956_2_alg».proof.Proof.Gen.Kernel.Launch
import proofs.«105750_j69595650064956_2_alg».proof.Proof.Gen.Kernel.Points
import proofs.«105750_j69595650064956_2_alg».proof.Proof.Gen.Kernel.Frame
import proofs.«105750_j69595650064956_2_alg».proof.Proof.Gen.KernelIdeal
import proofs.«105750_j69595650064956_2_alg».proof.Proof.Gen.KernelIdeal.Skeleton
import proofs.«105750_j69595650064956_2_alg».proof.Proof.Gen.KernelIdeal.Launch
import proofs.«105750_j69595650064956_2_alg».proof.Proof.Gen.KernelIdeal.Points
import proofs.«105750_j69595650064956_2_alg».proof.Proof.Gen.KernelIdeal.Frame
import proofs.«105750_j69595650064956_2_alg».proof.Proof.Gen.ReferenceIdeal
import proofs.«105750_j69595650064956_2_alg».proof.Proof.Gen.Pre_finite_inputs
import proofs.«105750_j69595650064956_2_alg».proof.Proof.Gen.KernelIdeal.Value
import proofs.«105750_j69595650064956_2_alg».proof.Proof.Gen.ReferenceIdeal.Run
import proofs.«105750_j69595650064956_2_alg».proof.Proof.Gen.ReferenceIdeal.Read
import proofs.«105750_j69595650064956_2_alg».proof.Proof.RefValue
import proofs.«105750_j69595650064956_2_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array ends at the specification of its
    arguments and the reference's at the specification of its own, which are the same arrays. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
